-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x66x256 : Shape := ⟨3, ![8192, 66, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S8192x66x256 : S_.BroadcastsInDim S8192x66x256 (![] : Fin 0 → Fin S8192x66x256.rank)
  reducesTo_S8192x66x256_S_d0_1_2 : S8192x66x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x66x256 .f32) (main_arg1 : FVec F S512x256 .f32) (main_arg2 : FVec F S256 .f32) (main_arg3 : FVec F S256x1 .f32) (main_arg4 : FVec F S1 .f32) : IVec S_ 1 :=
  let main_v0 : FVec F S8192x66x256 .f32 := Host.absf main_arg0
  let main_cst : FVec F S_ .f32 := constant S_ .f32 0x7F800000#32
  let main_v1 : FVec F S8192x66x256 .f32 := broadcastInDim S8192x66x256 ![] bcast_S_S8192x66x256 main_cst
  let main_v2 : IVec S8192x66x256 1 := cmpf .olt main_v0 main_v1
  let main_c : IVec S_ 1 := constantI S_ 1 1#1
  let main_v3 : IVec S_ 1 := (fun x v => Host.reduce IntOp.andi x v reducesTo_S8192x66x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S8192x66x256 : Shape := ⟨3, ![8192, 66, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S8192x256 : Shape := ⟨2, ![8192, 256]⟩
abbrev S64x66x256 : Shape := ⟨3, ![64, 66, 256]⟩
abbrev S64x256 : Shape := ⟨2, ![64, 256]⟩
abbrev S64x1x256 : Shape := ⟨3, ![64, 1, 256]⟩
abbrev S64x64x256 : Shape := ⟨3, ![64, 64, 256]⟩
abbrev S256x256 : Shape := ⟨2, ![256, 256]⟩
abbrev S4096x256 : Shape := ⟨2, ![4096, 256]⟩
abbrev S1x1x256 : Shape := ⟨3, ![1, 1, 256]⟩
abbrev S64x64 : Shape := ⟨2, ![64, 64]⟩
abbrev S1x1 : Shape := ⟨2, ![1, 1]⟩
abbrev S64 : Shape := ⟨1, ![64]⟩
abbrev S64x1 : Shape := ⟨2, ![64, 1]⟩
abbrev S64x64x1 : Shape := ⟨3, ![64, 64, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x66x256, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S1x256, .f32⟩
  | .hbm, ⟨6, _⟩ => ⟨S8192x256, .f32⟩
  | .hbm, ⟨7, _⟩ => ⟨S8192x256, .f32⟩
  | .local _ .vmem, ⟨0, _⟩ => ⟨S64x66x256, .f32⟩
  | .local _ .vmem, ⟨1, _⟩ => ⟨S64x66x256, .f32⟩
  | .local _ .vmem, ⟨2, _⟩ => ⟨S512x256, .f32⟩
  | .local _ .vmem, ⟨3, _⟩ => ⟨S256, .f32⟩
  | .local _ .vmem, ⟨4, _⟩ => ⟨S1x256, .f32⟩
  | .local _ .vmem, ⟨5, _⟩ => ⟨S1, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | _, _ => ⟨S8192x66x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x66x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x1_S1x256_1_0 : S256x1.Transposes [1, 0] S1x256
  inb_S64x66x256_S64x1x256_0_0_0 : ∀ a, (![0, 0, 0] : Fin 3 → Nat) a + S64x1x256.size a ≤ S64x66x256.size a
  h_S64x1x256 : 0 < S64x1x256.numel
  shapeCasts_S64x1x256_S64x256 : S64x1x256.ShapeCasts S64x256
  inb_S64x66x256_S64x1x256_0_1_0 : ∀ a, (![0, 1, 0] : Fin 3 → Nat) a + S64x1x256.size a ≤ S64x66x256.size a
  inb_S64x66x256_S64x64x256_0_2_0 : ∀ a, (![0, 2, 0] : Fin 3 → Nat) a + S64x64x256.size a ≤ S64x66x256.size a
  h_S64x64x256 : 0 < S64x64x256.numel
  inb_S512x256_S512x256_0_0 : ∀ a, (![0, 0] : Fin 2 → Nat) a + S512x256.size a ≤ S512x256.size a
  h_S512x256 : 0 < S512x256.numel
  slices_S512x256_o0_0_S256x256 : S512x256.Slices ![0, 0] S256x256
  slices_S512x256_o256_0_S256x256 : S512x256.Slices ![256, 0] S256x256
  bitsLt_bf16_f32 : FTy.bits .bf16 < FTy.bits .f32
  shapeCasts_S64x64x256_S4096x256 : S64x64x256.ShapeCasts S4096x256
  shapeCasts_S4096x256_S64x64x256 : S4096x256.ShapeCasts S64x64x256
  shapeCasts_S64x256_S64x1x256 : S64x256.ShapeCasts S64x1x256
  broadcasts_S64x1x256_S64x64x256 : S64x1x256.Broadcasts S64x64x256
  inb_S256_S256_0 : ∀ a, (![0] : Fin 1 → Nat) a + S256.size a ≤ S256.size a
  h_S256 : 0 < S256.numel
  shapeCasts_S256_S1x1x256 : S256.ShapeCasts S1x1x256
  broadcasts_S1x1x256_S64x64x256 : S1x1x256.Broadcasts S64x64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  reduces_S64x64x256_S64x64 : S64x64x256.Reduces [2] S64x64
  inb_S1_S1_0 : ∀ a, (![0] : Fin 1 → Nat) a + S1.size a ≤ S1.size a
  h_S1 : 0 < S1.numel
  shapeCasts_S1_S1x1 : S1.ShapeCasts S1x1
  broadcasts_S1x1_S64x64 : S1x1.Broadcasts S64x64
  reduces_S64x64_S64 : S64x64.Reduces [1] S64
  shapeCasts_S64_S64x1 : S64.ShapeCasts S64x1
  broadcasts_S64x1_S64x64 : S64x1.Broadcasts S64x64
  shapeCasts_S64x64_S64x64x1 : S64x64.ShapeCasts S64x64x1
  broadcasts_S64x64x1_S64x64x256 : S64x64x1.Broadcasts S64x64x256
  reduces_S64x64x256_S64x256 : S64x64x256.Reduces [1] S64x256
  inb_S64x256_S64x256_0_0 : ∀ a, (![0, 0] : Fin 2 → Nat) a + S64x256.size a ≤ S64x256.size a
  h_S64x256 : 0 < S64x256.numel
  dot_S64x256_S256x256_S64x256_1_0_0_1_n_n_wf : DotDims.WF S64x256 S256x256 S64x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x66x256.size a ≤ S8192x66x256.size a
  hwx0_0 : ∀ i : grid0.Coords, EltTy.bits .f32 = 32 ∨ (Rect.block (s := S8192x66x256) S64x66x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S8192x256.size a
  hwx0_5 : ∀ i : grid0.Coords, EltTy.bits .f32 = 32 ∨ (Rect.block (s := S8192x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S8192x256.size a
  hwx0_6 : ∀ i : grid0.Coords, EltTy.bits .f32 = 32 ∨ (Rect.block (s := S8192x256) S64x256.size (cc0_transform_6 i) (hinb0_6 i)).WholeWords (EltTy.packing .f32)

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S64x66x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x66x256 : Shape := ⟨3, ![8192, 66, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S8192x1x256 : Shape := ⟨3, ![8192, 1, 256]⟩
abbrev S8192x256 : Shape := ⟨2, ![8192, 256]⟩
abbrev S8192x64x256 : Shape := ⟨3, ![8192, 64, 256]⟩
abbrev S8192x64x512 : Shape := ⟨3, ![8192, 64, 512]⟩
abbrev S1x1x256 : Shape := ⟨3, ![1, 1, 256]⟩
abbrev S_ : Shape := ⟨0, ![]⟩
abbrev S8192x64x1 : Shape := ⟨3, ![8192, 64, 1]⟩
abbrev S1x1x1 : Shape := ⟨3, ![1, 1, 1]⟩
abbrev S8192x1 : Shape := ⟨2, ![8192, 1]⟩
abbrev S8192x1x1 : Shape := ⟨3, ![8192, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x66x256, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S8192x1x256, .f32⟩
  | .hbm, ⟨6, _⟩ => ⟨S8192x256, .f32⟩
  | .hbm, ⟨7, _⟩ => ⟨S8192x1x256, .f32⟩
  | .hbm, ⟨8, _⟩ => ⟨S8192x256, .f32⟩
  | .hbm, ⟨9, _⟩ => ⟨S8192x256, .f32⟩
  | .hbm, ⟨10, _⟩ => ⟨S8192x64x256, .f32⟩
  | .hbm, ⟨11, _⟩ => ⟨S8192x1x256, .f32⟩
  | .hbm, ⟨12, _⟩ => ⟨S8192x64x256, .f32⟩
  | .hbm, ⟨13, _⟩ => ⟨S8192x64x512, .f32⟩
  | .hbm, ⟨14, _⟩ => ⟨S8192x64x256, .f32⟩
  | .hbm, ⟨15, _⟩ => ⟨S1x1x256, .f32⟩
  | .hbm, ⟨16, _⟩ => ⟨S8192x64x256, .f32⟩
  | .hbm, ⟨17, _⟩ => ⟨S8192x64x256, .f32⟩
  | .hbm, ⟨18, _⟩ => ⟨S_, .f32⟩
  | .hbm, ⟨19, _⟩ => ⟨S8192x64x256, .f32⟩
  | .hbm, ⟨20, _⟩ => ⟨S8192x64x256, .f32⟩
  | .hbm, ⟨21, _⟩ => ⟨S8192x64x1, .f32⟩
  | .hbm, ⟨22, _⟩ => ⟨S1x1x1, .f32⟩
  | .hbm, ⟨23, _⟩ => ⟨S8192x64x1, .f32⟩
  | .hbm, ⟨24, _⟩ => ⟨S8192x64x1, .f32⟩
  | .hbm, ⟨25, _⟩ => ⟨S_, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1x1, .f32⟩
  | .hbm, ⟨31, _⟩ => ⟨S8192x64x1, .f32⟩
  | .hbm, ⟨32, _⟩ => ⟨S8192x64x1, .f32⟩
  | .hbm, ⟨33, _⟩ => ⟨S8192x64x1, .f32⟩
  | .hbm, ⟨34, _⟩ => ⟨S_, .f32⟩
  | .hbm, ⟨35, _⟩ => ⟨S8192x1, .f32⟩
  | .hbm, ⟨36, _⟩ => ⟨S8192x1x1, .f32⟩
  | .hbm, ⟨37, _⟩ => ⟨S8192x64x1, .f32⟩
  | .hbm, ⟨38, _⟩ => ⟨S8192x64x1, .f32⟩
  | .hbm, ⟨39, _⟩ => ⟨S8192x64x256, .f32⟩
  | .hbm, ⟨40, _⟩ => ⟨S8192x64x256, .f32⟩
  | .hbm, ⟨41, _⟩ => ⟨S_, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | _, _ => ⟨S8192x66x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S8192x66x256_S8192x1x256_0_0_0 : S8192x66x256.Slices ![0, 0, 0] S8192x1x256
  shapeCasts_S8192x1x256_S8192x256 : S8192x1x256.ShapeCasts S8192x256
  slices_S8192x66x256_S8192x1x256_0_1_0 : S8192x66x256.Slices ![0, 1, 0] S8192x1x256
  slices_S8192x66x256_S8192x64x256_0_2_0 : S8192x66x256.Slices ![0, 2, 0] S8192x64x256
  bcast_S8192x256_S8192x1x256_0_2 : S8192x256.BroadcastsInDim S8192x1x256 (![0, 2] : Fin 2 → Fin S8192x1x256.rank)
  bcast_S8192x1x256_S8192x64x256_0_1_2 : S8192x1x256.BroadcastsInDim S8192x64x256 (![0, 1, 2] : Fin 3 → Fin S8192x64x256.rank)
  concatenates_S8192x64x256_S8192x64x256_S8192x64x512_d2 : Shape.Concatenates [S8192x64x256, S8192x64x256] S8192x64x512 2
  bcast_S256_S1x1x256_2 : S256.BroadcastsInDim S1x1x256 (![2] : Fin 1 → Fin S1x1x256.rank)
  bcast_S1x1x256_S8192x64x256_0_1_2 : S1x1x256.BroadcastsInDim S8192x64x256 (![0, 1, 2] : Fin 3 → Fin S8192x64x256.rank)
  bcast_S_S8192x64x256 : S_.BroadcastsInDim S8192x64x256 (![] : Fin 0 → Fin S8192x64x256.rank)
  bcast_S1_S1x1x1_2 : S1.BroadcastsInDim S1x1x1 (![2] : Fin 1 → Fin S1x1x1.rank)
  bcast_S1x1x1_S8192x64x1_0_1_2 : S1x1x1.BroadcastsInDim S8192x64x1 (![0, 1, 2] : Fin 3 → Fin S8192x64x1.rank)
  reducesTo_S8192x64x1_S8192x1_d1 : S8192x64x1.ReducesTo [1] S8192x1
  h_S_ : 0 < S_.numel
  bcast_S_S8192x1 : S_.BroadcastsInDim S8192x1 (![] : Fin 0 → Fin S8192x1.rank)
  bcast_S8192x1_S8192x1x1_0_2 : S8192x1.BroadcastsInDim S8192x1x1 (![0, 2] : Fin 2 → Fin S8192x1x1.rank)
  bcast_S8192x1x1_S8192x64x1_0_1_2 : S8192x1x1.BroadcastsInDim S8192x64x1 (![0, 1, 2] : Fin 3 → Fin S8192x64x1.rank)
  bcast_S8192x64x1_S8192x64x256_0_1_2 : S8192x64x1.BroadcastsInDim S8192x64x256 (![0, 1, 2] : Fin 3 → Fin S8192x64x256.rank)
  reducesTo_S8192x64x256_S8192x256_d1 : S8192x64x256.ReducesTo [1] S8192x256
  bcast_S_S8192x256 : S_.BroadcastsInDim S8192x256 (![] : Fin 0 → Fin S8192x256.rank)
  dot_S8192x64x512_S512x256_S8192x64x256_2_0_01_1_n_n_wf : DotDims.WF S8192x64x512 S512x256 S8192x64x256 [2] [0] [0, 1] [1] [] []
  dot_S8192x64x256_S256x1_S8192x64x1_2_0_01_1_n_n_wf : DotDims.WF S8192x64x256 S256x1 S8192x64x1 [2] [0] [0, 1] [1] [] []

variable [Facts₀]

def dot_S8192x64x512_S512x256_S8192x64x256_2_0_01_1_n_n : DotDims S8192x64x512 S512x256 S8192x64x256 where
  lhsContracting := [2]
  rhsContracting := [0]
  lhsNonContracting := [0, 1]
  rhsNonContracting := [1]
  lhsBatch := []
  rhsBatch := []
  wf := dot_S8192x64x512_S512x256_S8192x64x256_2_0_01_1_n_n_wf
def dot_S8192x64x256_S256x1_S8192x64x1_2_0_01_1_n_n : DotDims S8192x64x256 S256x1 S8192x64x1 where
  lhsContracting := [2]
  rhsContracting := [0]
  lhsNonContracting := [0, 1]
  rhsNonContracting := [1]
  lhsBatch := []
  rhsBatch := []
  wf := dot_S8192x64x256_S256x1_S8192x64x1_2_0_01_1_n_n_wf

class Facts : Prop extends Facts₀ where

variable [Facts]
-- ==== Proof.AttnSpec.lean ====
/-
  Attention over a fixed tree axis, one batch row at a time, on the extended reals.

  A row carries a query vector `q` (256 entries), 64 tree vectors `tr t` (256 entries each), and shares the
  weights `W` (512 × 256), the bias `β`, the projection `π` and its offset `π₀`.  Each tree vector is joined to the
  query (query first), sent through `W`, shifted by `β` and clipped below at zero; the clipped vector is
  projected to one logit per tree; the 64 logits are turned into shares by the exponential of their distance to
  the largest one, normalised by the sum; and the result is the share-weighted sum of the tree vectors divided
  by 64.

  Two laws join the two arrangements of this computation that the certificate meets:
  * the contraction of a joined vector with `W` is the contraction of the tree half with the lower rows of `W`
    plus the contraction of the query half with the upper rows (a sum over 256 + 256 terms split in two; no
    finiteness is needed, addition on the extended reals being commutative and associative);
  * dividing by 64 is multiplying by the dyadic 1/64, at the infinities too.
-/
import Idealize.ShloMosaic.PureOps.Ideal
import Idealize.ShloMosaic.PureOps.Ideal.Laws

noncomputable section

namespace Cert.TreeAttn

open Idealize.ShloMosaic

/-- The word of `+0.0`, read as an extended real. -/
abbrev zeroW : EReal := Ideal.ofBits .f32 0x00000000#32
/-- The word of `-∞`, read as an extended real. -/
abbrev negInfW : EReal := Ideal.ofBits .f32 0xFF800000#32
/-- The word of `64.0`. -/
abbrev w64 : EReal := Ideal.ofBits .f32 0x42800000#32
/-- The word of `0.015625`. -/
abbrev w64inv : EReal := Ideal.ofBits .f32 0x3C800000#32

theorem w64_eq : w64 = ((64 : ℝ) : EReal) := by
  simp [w64, Ideal.ofBits, Ideal.ieee, -EReal.coe_mul]; norm_num

theorem w64inv_eq : w64inv = ((1 / 64 : ℝ) : EReal) := by
  simp [w64inv, Ideal.ofBits, Ideal.ieee, -EReal.coe_mul]; norm_num

section Row

variable (q : Fin 256 → EReal) (tr : Fin 64 → Fin 256 → EReal) (W : Fin 512 → Fin 256 → EReal)
  (β π : Fin 256 → EReal) (π₀ : EReal)

/-- The query followed by tree vector `t`: 512 entries. -/
def joined (t : Fin 64) (k : Fin 512) : EReal :=
  if h : k.val < 256 then q ⟨k.val, h⟩ else tr t ⟨k.val - 256, by have := k.isLt; omega⟩

/-- The joined vector sent through the weights. -/
def pre (t : Fin 64) (a : Fin 256) : EReal := ∑ k : Fin 512, joined q tr t k * W k a

/-- Shifted by the bias and clipped below at zero. -/
def hid (t : Fin 64) (a : Fin 256) : EReal := max (pre q tr W t a + β a) zeroW

/-- One logit per tree vector. -/
def logit (t : Fin 64) : EReal := (∑ a : Fin 256, hid q tr W β t a * π a) + π₀

/-- The largest logit (the maximum taken from `-∞`). -/
def top : EReal := (Finset.univ : Finset (Fin 64)).fold max negInfW (logit q tr W β π π₀)

/-- The unnormalised weight of tree vector `t`. -/
def wt (t : Fin 64) : EReal := Ideal.exp (logit q tr W β π π₀ t - top q tr W β π π₀)

/-- The sum of the weights. -/
def total : EReal := ∑ t : Fin 64, wt q tr W β π π₀ t

/-- The share of tree vector `t`. -/
def share (t : Fin 64) : EReal := Ideal.div (wt q tr W β π π₀ t) (total q tr W β π π₀)

/-- The share-weighted sum of the tree vectors. -/
def pooled (e : Fin 256) : EReal := ∑ t : Fin 64, share q tr W β π π₀ t * tr t e

/-- The row's result: the pooled vector divided by the number of trees. -/
def out (e : Fin 256) : EReal := Ideal.div (pooled q tr W β π π₀ e) w64

/-- The contraction of the joined vector splits into the tree half against the lower rows of the weights plus
    the query half against the upper rows. -/
theorem pre_split (t : Fin 64) (a : Fin 256) :
    pre q tr W t a
      = (∑ k : Fin 256, tr t k * W ⟨256 + k.val, by have := k.isLt; omega⟩ a)
        + (∑ k : Fin 256, q k * W ⟨k.val, by have := k.isLt; omega⟩ a) := by
  unfold pre
  have h := Fin.sum_univ_add (a := 256) (b := 256) (fun k : Fin (256 + 256) => joined q tr t k * W k a)
  refine h.trans ?_
  rw [add_comm]
  congr 1

/-- Dividing the pooled vector by 64 is multiplying it by 1/64. -/
theorem out_scaled (e : Fin 256) : out q tr W β π π₀ e = pooled q tr W β π π₀ e * w64inv := by
  unfold out
  rw [w64_eq, Ideal.div_coe (by norm_num : (64 : ℝ) ≠ 0), w64inv_eq]

/-- The largest logit absorbs one more `-∞`. -/
theorem top_absorb : max negInfW (top q tr W β π π₀) = top q tr W β π π₀ :=
  max_eq_right ((Finset.le_fold_max _).mpr (Or.inl le_rfl))

end Row

end Cert.TreeAttn

end
-- ==== Proof.LibRowStack.lean ====
/-
  A three-axis stack [a,b,c] met by rows and by flat matrices, each operation read at an index written by
  coordinates: a matrix [a,c] given a middle unit axis (and back) and stretched along it to [a,b,c]; a vector [c]
  and a one-row matrix [1,c] given two leading unit axes and stretched to [a,b,c]; a one-entry vector viewed
  [1,1] and stretched to a matrix [a,b]; the row-major re-bracketing [a,b,c] ↔ [n,c] with n = a·b (row
  i·b + j of the flat matrix is position (i, j) of the stack); a block of consecutive rows cut out of a matrix;
  and the stack summed along its MIDDLE axis.
-/
import Idealize.ShloMosaic.Lib.Pipeline.Value
import Idealize.ShloMosaic.Lib.ValueIdx
import Idealize.ShloMosaic.PureOps.Ideal.Laws

namespace Cert.LibRowStack

open Idealize.ShloMosaic Idealize.ShloMosaic.ValueIdx

variable {α : Type}

/-- [a,1,c] viewed [a,c]: at (i, k) the stack at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- [a,c] viewed [a,1,c]: at (i, u, k) the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- [a,1,c] stretched to [a,b,c]: at (i, j, k) the slab at (i, 0, k). -/
theorem broadcastTo_a1c_abc_apply {a b c : ℕ} (U : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ U h (ix3 i j k) = U (ix3 i (0 : Fin 1) k) := by
  refine broadcastTo_apply U h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- [c] viewed [1,1,c]: at (u, v, k) the vector at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- [1,c] viewed [1,1,c]: at (u, v, k) the row's entry k. -/
theorem shapeCast_1c_11c_apply {c : ℕ} (x : (⟨2, ![1, c]⟩ : Shape).Idx → α)
    (h : (⟨2, ![1, c]⟩ : Shape).ShapeCasts ⟨3, ![1, 1, c]⟩) (u v : Fin 1) (k : Fin c) :
    shapeCast ⟨3, ![1, 1, c]⟩ x h (ix3 u v k) = x (ix2 (0 : Fin 1) k) :=
  shapeCast_apply x h _ _ (by
    have hu : u.val = 0 := by omega
    have hv : v.val = 0 := by omega
    rw [Shape.rowMajor_val_three, Shape.rowMajor_val_two]
    show 0 * c + k.val = (u.val * 1 + v.val) * c + k.val
    rw [hu, hv])

/-- [1,1,c] stretched to [a,b,c]: at (i, j, k) the row's entry k. -/
theorem broadcastTo_11c_abc_apply {a b c : ℕ} (U : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ U h (ix3 i j k) = U (ix3 (0 : Fin 1) (0 : Fin 1) k) := by
  refine broadcastTo_apply U h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- [1] viewed [1,1]: the one entry. -/
theorem shapeCast_1_11_apply (x : (⟨1, ![1]⟩ : Shape).Idx → α)
    (h : (⟨1, ![1]⟩ : Shape).ShapeCasts ⟨2, ![1, 1]⟩) (u v : Fin 1) :
    shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    rw [hu, hv])

/-- [1,1] stretched to [a,b]: the one entry everywhere. -/
theorem broadcastTo_11_ab_apply {a b : ℕ} (U : (⟨2, ![1, 1]⟩ : Shape).Idx → α)
    (h : (⟨2, ![1, 1]⟩ : Shape).Broadcasts ⟨2, ![a, b]⟩) (i : Fin a) (j : Fin b) :
    broadcastTo ⟨2, ![a, b]⟩ U h (ix2 i j) = U (ix2 (0 : Fin 1) (0 : Fin 1)) := by
  refine broadcastTo_apply U h (ix2 i j) (ix2 (0 : Fin 1) (0 : Fin 1)) fun ax => ?_
  match ax with
  | ⟨0, _⟩ => rfl
  | ⟨1, _⟩ => rfl

/-- [a,b,c] flattened to [n,c], n = a·b: row i·b + j of the flat matrix is position (i, j) of the stack. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- [n,c] re-bracketed to [a,b,c], n = a·b: position (i, j) of the stack is row i·b + j of the flat matrix. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A block of `r` consecutive rows starting at row `o` cut out of an [n,c] matrix: at (i, k) the matrix at (o + i, k). -/
theorem slice_rows_apply {n r c : ℕ} (o : ℕ) (x : (⟨2, ![n, c]⟩ : Shape).Idx → α)
    (h : (⟨2, ![n, c]⟩ : Shape).Slices ![o, 0] ⟨2, ![r, c]⟩) (i : Fin r) (k : Fin c) (p : Fin n)
    (hp : p.val = o + i.val) :
    extractStridedSlice ⟨2, ![r, c]⟩ ![o, 0] x h (ix2 i k) = x (ix2 p k) := by
  refine extractStridedSlice_apply ![o, 0] x h (ix2 i k) (ix2 p k) fun ax => ?_
  match ax with
  | ⟨0, _⟩ => exact hp
  | ⟨1, _⟩ => exact (Nat.zero_add k.val).symm

/-- The stack summed along its MIDDLE axis, from the additive neutral: at (i, k) the sum over j of the entries (i, j, k). -/
theorem sum_mid_apply {a b c : ℕ} (src : FVec Ideal ⟨3, ![a, b, c]⟩ .f32) (acc : BitVec FTy.f32.bits)
    (h : (⟨3, ![a, b, c]⟩ : Shape).Reduces [1] ⟨2, ![a, c]⟩) (hφ : FKind.Formats .f32)
    (hacc : acc = FKind.add.neutral .f32 hφ) (i : Fin a) (k : Fin c) :
    multiReduction .add [1] ⟨2, ![a, c]⟩ src acc h hφ hacc (ix2 i k) = ∑ j : Fin b, src (ix3 i j k) := by
  rw [Ideal.multiReduction_add_single]
  refine Finset.sum_congr rfl fun j _ => ?_
  exact congrArg src (funext fun ax => Fin.ext (by match ax with | ⟨0, _⟩ => rfl | ⟨1, _⟩ => rfl | ⟨2, _⟩ => rfl))

end Cert.LibRowStack
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.LibStack.lean ====
/-
  A three-axis stack [a,b,c] met by matrices: a matrix [a,b] given a trailing unit axis and stretched along it, one
  entry of a matrix or of a vector picked out as a scalar (a 1×1 or 1-long slab read at its only position), and the
  stack summed along its first or its last axis — each read at an index written by coordinates.
-/
import Idealize.ShloMosaic.Lib.Pipeline.Value
import Idealize.ShloMosaic.Lib.ValueIdx
import Idealize.ShloMosaic.Lib.ValueLayout
import Idealize.ShloMosaic.PureOps.Ideal.Laws

namespace Cert.LibStack

open Idealize.ShloMosaic Idealize.ShloMosaic.ValueIdx

variable {α : Type}

/-- [a,b] viewed [a,b,1]: at (i, j, u) the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a,b,1] stretched to [a,b,c]: at (i, j, k) the column at (i, j, 0). -/
theorem broadcastTo_ab1_abc_apply {a b c : ℕ} (U : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ U h (ix3 i j k) = U (ix3 i j (0 : Fin 1)) := by
  refine broadcastTo_apply U h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The 1×1 slab of a matrix at offset (p, q), read at its only position: the matrix at (p, q). -/
theorem pick2 {n0 n1 : ℕ} (p q : ℕ) (X : (⟨2, ![n0, n1]⟩ : Shape).Idx → α)
    (h : (⟨2, ![n0, n1]⟩ : Shape).Slices ![p, q] ⟨2, ![1, 1]⟩)
    (h' : ∀ a, (![0, 0] : Fin 2 → ℕ) a < (⟨2, ![1, 1]⟩ : Shape).size a) :
    extractAt ![0, 0] (extractStridedSlice ⟨2, ![1, 1]⟩ ![p, q] X h) h'
      = X (ix2 ⟨p, Nat.lt_of_lt_of_le (Nat.lt_succ_self p) (h.2 0)⟩ ⟨q, Nat.lt_of_lt_of_le (Nat.lt_succ_self q) (h.2 1)⟩) := by
  show X _ = X _
  refine congrArg X (funext fun a => Fin.ext ?_)
  match a with
  | ⟨0, _⟩ => exact Nat.add_zero p
  | ⟨1, _⟩ => exact Nat.add_zero q

/-- The 1-long slab of a vector at offset p, read at its only position: the vector at p. -/
theorem pick1 {n0 : ℕ} (p : ℕ) (X : (⟨1, ![n0]⟩ : Shape).Idx → α)
    (h : (⟨1, ![n0]⟩ : Shape).Slices ![p] ⟨1, ![1]⟩)
    (h' : ∀ a, (![0] : Fin 1 → ℕ) a < (⟨1, ![1]⟩ : Shape).size a) :
    extractAt ![0] (extractStridedSlice ⟨1, ![1]⟩ ![p] X h) h'
      = X (ix1 ⟨p, Nat.lt_of_lt_of_le (Nat.lt_succ_self p) (h.2 0)⟩) := by
  show X _ = X _
  refine congrArg X (funext fun a => Fin.ext ?_)
  match a with
  | ⟨0, _⟩ => exact Nat.add_zero p

/-- The stack summed along its LAST axis, from the additive neutral: at (i, j) the sum over k of the entries (i, j, k). -/
theorem sum_last_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) := by
  rw [Ideal.multiReduction_add_single]
  refine Finset.sum_congr rfl fun k _ => ?_
  exact congrArg src (funext fun ax => Fin.ext (by match ax with | ⟨0, _⟩ => rfl | ⟨1, _⟩ => rfl | ⟨2, _⟩ => rfl))

/-- The stack summed along its FIRST axis, from the additive neutral: at (j, k) the sum over i of the entries (i, j, k). -/
theorem sum_first_apply {a b c : ℕ} (src : FVec Ideal ⟨3, ![a, b, c]⟩ .f32) (acc : BitVec FTy.f32.bits)
    (h : (⟨3, ![a, b, c]⟩ : Shape).Reduces [0] ⟨2, ![b, c]⟩) (hφ : FKind.Formats .f32)
    (hacc : acc = FKind.add.neutral .f32 hφ) (j : Fin b) (k : Fin c) :
    multiReduction .add [0] ⟨2, ![b, c]⟩ src acc h hφ hacc (ix2 j k) = ∑ i : Fin a, src (ix3 i j k) := by
  rw [Ideal.multiReduction_add_single]
  refine Finset.sum_congr rfl fun i _ => ?_
  exact congrArg src (funext fun ax => Fin.ext (by match ax with | ⟨0, _⟩ => rfl | ⟨1, _⟩ => rfl | ⟨2, _⟩ => rfl))

end Cert.LibStack
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.KernelRow.lean ====
/-
  One block of the kernel, read row by row.  A block holds 64 batch rows; what the body stores for row `r` of a
  block depends only on that row's slabs of the loaded values: the two query factors `P0`, `P1` (64 × 1 × 256), the
  tree stack `P2` (64 × 64 × 256), and the shared weights `P3`, bias `P4`, projection row `P5` and offset `P6`.
  The body's arithmetic is cut into its stages — the query product, the two matrix products (query half against
  the upper 256 rows of the weights, tree half against the lower 256 rows), the clipped hidden stack, the logits,
  their row maxima, the normalised exponentials, the pooled sum scaled by 1/64 — and each stage is read at an
  index written by coordinates.  Row `r`'s stored vector is then the row function of Proof/AttnSpec.lean at
  that row's data: the split contraction is the joined one (`pre_split`) and the scaling by 1/64 is the division
  by 64 (`out_scaled`).
-/
import proofs.«167542_j40991167873617_2_alg».proof.Proof.Gen.KernelIdeal.Skeleton
import proofs.«167542_j40991167873617_2_alg».proof.Proof.AttnSpec
import proofs.«167542_j40991167873617_2_alg».proof.Proof.LibRowStack
import proofs.«167542_j40991167873617_2_alg».proof.Proof.LibKeepdims
import proofs.«167542_j40991167873617_2_alg».proof.Proof.LibStack
import proofs.«167542_j40991167873617_2_alg».proof.Proof.LibMatmul
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx
open Cert.TreeAttn Cert.LibRowStack Cert.LibStack

variable (P0 P1 : Vec Ideal S64x1x256 .f32) (P2 : Vec Ideal S64x64x256 .f32) (P3 : Vec Ideal S512x256 .f32)
  (P4 : Vec Ideal S256 .f32) (P5 : Vec Ideal S1x256 .f32) (P6 : Vec Ideal S1 .f32)

/-! ## A row's data -/

/-- Row `r`'s query: the product of its two factor vectors. -/
def qRow (r : Fin 64) : Fin 256 → EReal := fun e => (P0 (ix3 r (0 : Fin 1) e) : EReal) * P1 (ix3 r (0 : Fin 1) e)
/-- Row `r`'s 64 tree vectors. -/
def trRow (r : Fin 64) : Fin 64 → Fin 256 → EReal := fun t e => P2 (ix3 r t e)
/-- The weights by coordinates. -/
def wMat : Fin 512 → Fin 256 → EReal := fun k a => P3 (ix2 k a)
/-- The bias by coordinate. -/
def bias : Fin 256 → EReal := fun a => P4 (ix1 a)
/-- The projection (held as one row) by coordinate. -/
def proj : Fin 256 → EReal := fun a => P5 (ix2 (0 : Fin 1) a)
/-- The projection's offset. -/
def offs : EReal := P6 (ix1 (0 : Fin 1))

/-! ## The stages of the body -/

/-- The query half sent through the upper 256 rows of the weights: a 64 × 256 product. -/
def queryTerm : FVec Ideal S64x256 .f32 :=
  matmul dot_S64x256_S256x256_S64x256_1_0_0_1_n_n none (truncf .bf16 (k0_pay2 P0 P1) bitsLt_bf16_f32)
    (truncf .bf16 (extractStridedSlice S256x256 ![0, 0] P3 slices_S512x256_o0_0_S256x256) bitsLt_bf16_f32)
    (constant S64x256 .f32 0x00000000#32)

/-- The tree half, flattened to 4096 rows, sent through the lower 256 rows of the weights. -/
def treeTerm : FVec Ideal S4096x256 .f32 :=
  matmul dot_S4096x256_S256x256_S4096x256_1_0_0_1_n_n none
    (truncf .bf16 (shapeCast S4096x256 P2 shapeCasts_S64x64x256_S4096x256) bitsLt_bf16_f32)
    (truncf .bf16 (extractStridedSlice S256x256 ![256, 0] P3 slices_S512x256_o256_0_S256x256) bitsLt_bf16_f32)
    (constant S4096x256 .f32 0x00000000#32)

/-- The hidden stack: tree term plus query term (stretched over the trees) plus bias, clipped below at zero. -/
def hidStack : FVec Ideal S64x64x256 .f32 :=
  maximumf
    (addf
      (addf (shapeCast S64x64x256 (treeTerm P2 P3) shapeCasts_S4096x256_S64x64x256)
        (broadcastTo S64x64x256 (shapeCast S64x1x256 (queryTerm P0 P1 P3) shapeCasts_S64x256_S64x1x256) broadcasts_S64x1x256_S64x64x256))
      (broadcastTo S64x64x256 (shapeCast S1x1x256 P4 shapeCasts_S256_S1x1x256) broadcasts_S1x1x256_S64x64x256))
    (broadcast S64x64x256 (Scalar.ofBits .f32 0x00000000#32))

/-- The logits are the hidden stack against the projection row, summed along the last axis, plus the offset. -/
theorem pay3_eq : k0_pay3 P0 P1 P2 P3 P4 P5 P6
    = addf
        (multiReduction .add [2] S64x64
          (mulf (hidStack P0 P1 P2 P3 P4)
            (broadcastTo S64x64x256 (shapeCast S1x1x256 (shapeCast S1x256 P5 shapeCasts_S1x256_S1x256) shapeCasts_S1x256_S1x1x256) broadcasts_S1x1x256_S64x64x256))
          0x00000000#32 reduces_S64x64x256_S64x64 (.inl rfl) rfl)
        (broadcastTo S64x64 (shapeCast S1x1 P6 shapeCasts_S1_S1x1) broadcasts_S1x1_S64x64) := rfl

/-- The row maxima of a 64 × 64 matrix, kept as a column and stretched back. -/
def rowMax (L : FVec Ideal S64x64 .f32) : FVec Ideal S64x64 .f32 :=
  broadcastTo S64x64 (shapeCast S64x1 (multiReduction .maximumf [1] S64 L 0xFF800000#32 reduces_S64x64_S64 (.inl rfl) rfl) shapeCasts_S64_S64x1) broadcasts_S64x1_S64x64

theorem pay4_eq : k0_pay4 P0 P1 P2 P3 P4 P5 P6 = rowMax (k0_pay3 P0 P1 P2 P3 P4 P5 P6) := rfl

/-- The exponentials of a matrix less another, each row normalised by its sum. -/
def softRow (L M : FVec Ideal S64x64 .f32) : FVec Ideal S64x64 .f32 :=
  divf (exp (subf L M))
    (broadcastTo S64x64 (shapeCast S64x1 (multiReduction .add [1] S64 (exp (subf L M)) 0x00000000#32 reduces_S64x64_S64 (.inl rfl) rfl) shapeCasts_S64_S64x1) broadcasts_S64x1_S64x64)

theorem pay1_eq (v5 : Vec Ideal S64x64x256 .f32) (L M : FVec Ideal S64x64 .f32) : k0_pay1 v5 L M
    = mulf
        (multiReduction .add [1] S64x256
          (mulf (broadcastTo S64x64x256 (shapeCast S64x64x1 (softRow L M) shapeCasts_S64x64_S64x64x1) broadcasts_S64x64x1_S64x64x256) v5)
          0x00000000#32 reduces_S64x64x256_S64x256 (.inl rfl) rfl)
        (broadcast S64x256 (Scalar.ofBits .f32 0x3C800000#32)) := rfl

/-! ## Each stage at an index -/

/-- The query product at (r, e). -/
theorem pay2_apply (r : Fin 64) (e : Fin 256) : k0_pay2 P0 P1 (ix2 r e) = qRow P0 P1 r e :=
  congrArg₂ (fun x y : EReal => x * y) (shapeCast_a1c_ac_apply P0 shapeCasts_S64x1x256_S64x256 r e)
    (shapeCast_a1c_ac_apply P1 shapeCasts_S64x1x256_S64x256 r e)

/-- The query term at (r, a): row r's query against column a of the upper rows of the weights. -/
theorem queryTerm_apply (r : Fin 64) (a : Fin 256) :
    queryTerm P0 P1 P3 (ix2 r a) = ∑ k : Fin 256, qRow P0 P1 r k * wMat P3 ⟨k.val, by have := k.isLt; omega⟩ a := by
  refine (matmul_plain_zero_apply 64 256 256 none _ _ r a).trans ?_
  refine Finset.sum_congr rfl fun k _ => ?_
  refine congrArg₂ (fun x y : EReal => x * y) (pay2_apply P0 P1 r k) ?_
  exact slice_rows_apply 0 P3 slices_S512x256_o0_0_S256x256 k a ⟨k.val, by have := k.isLt; omega⟩ (Nat.zero_add _).symm

/-- The tree term at flat row r·64 + t and column a: tree vector (r, t) against column a of the lower rows. -/
theorem treeTerm_apply (r t : Fin 64) (a : Fin 256) (n : Fin 4096) (hn : n.val = r.val * 64 + t.val) :
    treeTerm P2 P3 (ix2 n a) = ∑ k : Fin 256, trRow P2 r t k * wMat P3 ⟨256 + k.val, by have := k.isLt; omega⟩ a := by
  refine (matmul_plain_zero_apply 4096 256 256 none _ _ n a).trans ?_
  refine Finset.sum_congr rfl fun k _ => ?_
  refine congrArg₂ (fun x y : EReal => x * y) ?_ ?_
  · exact shapeCast_abc_nc_apply P2 shapeCasts_S64x64x256_S4096x256 r t k n hn
  · exact slice_rows_apply 256 P3 slices_S512x256_o256_0_S256x256 k a ⟨256 + k.val, by have := k.isLt; omega⟩ rfl

/-- The hidden stack at (r, t, a) is the row function's hidden value. -/
theorem hidStack_apply (r t : Fin 64) (a : Fin 256) :
    hidStack P0 P1 P2 P3 P4 (ix3 r t a) = hid (qRow P0 P1 r) (trRow P2 r) (wMat P3) (bias P4) t a := by
  unfold hid
  rw [pre_split]
  unfold hidStack
  rw [maximumf_apply, addf_apply, addf_apply,
    shapeCast_nc_abc_apply (treeTerm P2 P3) shapeCasts_S4096x256_S64x64x256 r t a
      ⟨r.val * 64 + t.val, by have := r.isLt; have := t.isLt; omega⟩ rfl,
    treeTerm_apply P2 P3 r t a _ rfl, broadcastTo_a1c_abc_apply, shapeCast_ac_a1c_apply, queryTerm_apply,
    broadcastTo_11c_abc_apply, shapeCast_c_11c_apply]
  rfl

/-- The logit at (r, t). -/
theorem pay3_apply (r t : Fin 64) :
    k0_pay3 P0 P1 P2 P3 P4 P5 P6 (ix2 r t)
      = logit (qRow P0 P1 r) (trRow P2 r) (wMat P3) (bias P4) (proj P5) (offs P6) t := by
  rw [pay3_eq, addf_apply]
  unfold logit
  refine congrArg₂ (fun x y : EReal => x + y) ?_ ?_
  · refine (sum_last_apply _ _ _ _ _ r t).trans (Finset.sum_congr rfl fun a _ => ?_)
    rw [mulf_apply, hidStack_apply, broadcastTo_11c_abc_apply, shapeCast_1c_11c_apply, shapeCast_self]
    rfl
  · rw [broadcastTo_11_ab_apply, shapeCast_1_11_apply]
    rfl

/-- A matrix's stretched row maxima at (r, t): the maximum, from `-∞`, of row r. -/
theorem rowMax_apply (L : FVec Ideal S64x64 .f32) (r t : Fin 64) :
    rowMax L (ix2 r t) = (Finset.univ : Finset (Fin 64)).fold max negInfW (fun t' => L (ix2 r t')) := by
  unfold rowMax
  rw [broadcastTo_a1_ab_apply, shapeCast_a_a1_apply]
  exact multiReduction_maximumf_rows_apply L _ _ _ _ r

/-- The normalised exponentials at (r, t). -/
theorem softRow_apply (L M : FVec Ideal S64x64 .f32) (r t : Fin 64) :
    softRow L M (ix2 r t)
      = Ideal.div (Ideal.exp ((L (ix2 r t) : EReal) - M (ix2 r t))) (∑ t' : Fin 64, Ideal.exp ((L (ix2 r t') : EReal) - M (ix2 r t'))) := by
  unfold softRow
  rw [divf_apply, broadcastTo_a1_ab_apply, shapeCast_a_a1_apply]
  refine congrArg₂ Ideal.div rfl ?_
  exact multiReduction_add_rows_apply (exp (subf L M)) _ _ _ _ r

/-- The stored vector at (r, e), over any tree stack and any two matrices. -/
theorem pay1_apply (v5 : Vec Ideal S64x64x256 .f32) (L M : FVec Ideal S64x64 .f32) (r : Fin 64) (e : Fin 256) :
    k0_pay1 v5 L M (ix2 r e) = (∑ t : Fin 64, softRow L M (ix2 r t) * (v5 (ix3 r t e) : EReal)) * w64inv := by
  rw [pay1_eq, mulf_apply]
  refine congrArg₂ (fun x y : EReal => x * y) ?_ rfl
  refine (sum_mid_apply _ _ _ _ _ r e).trans (Finset.sum_congr rfl fun t _ => ?_)
  rw [mulf_apply, broadcastTo_ab1_abc_apply, shapeCast_ab_ab1_apply]

/-! ## The row -/

/-- What the body stores for row `r` of a block, at column `e`, is the row function at that row's data. -/
theorem out_apply (r : Fin 64) (e : Fin 256) :
    k0_pay1 P2 (k0_pay3 P0 P1 P2 P3 P4 P5 P6) (k0_pay4 P0 P1 P2 P3 P4 P5 P6) (ix2 r e)
      = out (qRow P0 P1 r) (trRow P2 r) (wMat P3) (bias P4) (proj P5) (offs P6) e := by
  rw [out_scaled, pay1_apply, pay4_eq]
  refine congrArg₂ (fun x y : EReal => x * y) ?_ rfl
  unfold pooled
  refine Finset.sum_congr rfl fun t _ => ?_
  refine congrArg₂ (fun x y : EReal => x * y) ?_ rfl
  rw [softRow_apply]
  simp only [rowMax_apply, pay3_apply]
  rfl

end Cert.KernelIdeal.Row

end
-- ==== Proof.AttnArrays.lean ====
/-
  The two result arrays of the tree attention as functions of the five argument arrays, index by index.

  Batch row `b` of the input `x` (8192 × 66 × 256) holds two query factors (positions 0 and 1 of its middle
  axis) and 64 tree vectors (positions 2 … 65).  The first result (8192 × 256) is, at (b, e), the row function of
  Proof/AttnSpec.lean at row b's query product and tree vectors and the shared weights; the second result is the
  query product itself.
-/
import proofs.«167542_j40991167873617_2_alg».proof.Proof.AttnSpec
import Idealize.ShloMosaic.Lib.ValueIdx

noncomputable section

namespace Cert.TreeAttn

open Idealize.ShloMosaic Idealize.ShloMosaic.ValueIdx

variable (x : (⟨3, ![8192, 66, 256]⟩ : Shape).Idx → EReal) (w : (⟨2, ![512, 256]⟩ : Shape).Idx → EReal)
  (β : (⟨1, ![256]⟩ : Shape).Idx → EReal) (p : (⟨2, ![256, 1]⟩ : Shape).Idx → EReal)
  (o : (⟨1, ![1]⟩ : Shape).Idx → EReal)

/-- Row `b`'s query: the product of its first two vectors. -/
def rowQ (b : Fin 8192) : Fin 256 → EReal := fun e => x (ix3 b (0 : Fin 66) e) * x (ix3 b (1 : Fin 66) e)
/-- Row `b`'s tree vectors: positions 2 … 65. -/
def rowTr (b : Fin 8192) : Fin 64 → Fin 256 → EReal :=
  fun t e => x (ix3 b (⟨2 + t.val, by have := t.isLt; omega⟩ : Fin 66) e)
/-- The weights by coordinates. -/
def matW : Fin 512 → Fin 256 → EReal := fun k a => w (ix2 k a)
/-- The bias by coordinate. -/
def vecB : Fin 256 → EReal := fun a => β (ix1 a)
/-- The projection (a 256 × 1 column) by coordinate. -/
def colP : Fin 256 → EReal := fun a => p (ix2 a (0 : Fin 1))
/-- The projection's offset. -/
def offO : EReal := o (ix1 (0 : Fin 1))

/-- The attention output, 8192 × 256. -/
def outArr : (⟨2, ![8192, 256]⟩ : Shape).Idx → EReal := fun i =>
  out (rowQ x ⟨(i 0).val, (i 0).isLt⟩) (rowTr x ⟨(i 0).val, (i 0).isLt⟩) (matW w) (vecB β) (colP p) (offO o)
    ⟨(i 1).val, (i 1).isLt⟩

/-- The query products, 8192 × 256. -/
def prodArr : (⟨2, ![8192, 256]⟩ : Shape).Idx → EReal := fun i =>
  rowQ x ⟨(i 0).val, (i 0).isLt⟩ ⟨(i 1).val, (i 1).isLt⟩

theorem outArr_ix2 (b : Fin 8192) (e : Fin 256) :
    outArr x w β p o (ix2 b e) = out (rowQ x b) (rowTr x b) (matW w) (vecB β) (colP p) (offO o) e := rfl

theorem prodArr_ix2 (b : Fin 8192) (e : Fin 256) : prodArr x (ix2 b e) = rowQ x b e := rfl

end Cert.TreeAttn

end
-- ==== Proof.KernelArray.lean ====
/-
  From blocks to arrays.  The grid has 128 points; point `t` reads rows 64·t … 64·t + 63 of the input (all 66
  positions, all 256 columns), the whole weights, bias, projection row and offset, and writes rows 64·t … 64·t + 63
  of each result.  The projection row the kernel reads is the transpose of the 256 × 1 projection argument, made
  on the host before the launch.  Row `r` of point `t`'s block is batch row 64·t + r, so what point `t` writes back
  is block `t` of the arrays of Proof/AttnArrays.lean; the 128 blocks tile each result array; hence each result
  array after the run is that array.
-/
import proofs.«167542_j40991167873617_2_alg».proof.Proof.Gen.KernelIdeal.Value
import proofs.«167542_j40991167873617_2_alg».proof.Proof.KernelRow
import proofs.«167542_j40991167873617_2_alg».proof.Proof.AttnArrays
import Idealize.ShloMosaic.Lib.Pipeline.Value
import Idealize.ShloMosaic.Lib.StableHlo.Run
import Idealize.ShloMosaic.Lib.Tactic

noncomputable section

namespace Cert.KernelIdeal.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.TreeAttn

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-- The index maps over the grid: the input and both results move one block of rows per point, the other windows
    stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The argument arrays as the region finds them -/

abbrev argX (c : Dev nD) : S8192x66x256.Idx → EReal := m ((c : Thread nD τ).loc main_arg0)
abbrev argW (c : Dev nD) : S512x256.Idx → EReal := m ((c : Thread nD τ).loc main_arg1)
abbrev argB (c : Dev nD) : S256.Idx → EReal := m ((c : Thread nD τ).loc main_arg2)
abbrev argP (c : Dev nD) : S256x1.Idx → EReal := m ((c : Thread nD τ).loc main_arg3)
abbrev argO (c : Dev nD) : S1.Idx → EReal := m ((c : Thread nD τ).loc main_arg4)

/-- The projection row the region finds is the transpose of the projection argument. -/
theorem V_row (c : Dev nD) :
    (V m c main_v0 : S1x256.Idx → EReal) = transpose S1x256 [1, 0] (argP m c) transposes_S256x1_S1x256_1_0 := by
  dsimp only [Gen.V, Gen.hostOps0]
  after_results

/-! ## Each input block read at an index -/

/-- Row r of point t's input block is batch row 64·t + r. -/
theorem blk0_apply (c : Dev nD) (t : Fin cfg0.N) (r : Fin 64) (s : Fin 66) (e : Fin 256) (hb : t.val * 64 + r.val < 8192) :
    (iblk m c 0 t : Vec Ideal S64x66x256 .f32) (ix3 r s e) = argX m c (ix3 ⟨t.val * 64 + r.val, hb⟩ s e) := by
  obtain ⟨e0, e1, e2, -⟩ := idx_facts t
  show V m c main_arg0 (((cfg0.win 0).blk t).view.emb (ix3 r s e)) = _
  rw [V_main_arg0]
  refine congrArg (argX m c) (funext fun a => Fin.ext ?_)
  match a with
  | ⟨0, _⟩ => show win0_0.index t (0 : Fin 3) * 64 + 1 * r.val = t.val * 64 + r.val; rw [e0]; omega
  | ⟨1, _⟩ => show win0_0.index t (1 : Fin 3) * 66 + 1 * s.val = s.val; rw [e1]; omega
  | ⟨2, _⟩ => show win0_0.index t (2 : Fin 3) * 256 + 1 * e.val = e.val; rw [e2]; omega

/-- Every point's weights block is the weights. -/
theorem blk1_apply (c : Dev nD) (t : Fin cfg0.N) (k : Fin 512) (a : Fin 256) :
    (iblk m c 1 t : Vec Ideal S512x256 .f32) (ix2 k a) = argW m c (ix2 k a) := by
  obtain ⟨-, -, -, e0, e1, -⟩ := idx_facts t
  show V m c main_arg1 (((cfg0.win 1).blk t).view.emb (ix2 k a)) = _
  rw [V_main_arg1]
  refine congrArg (argW m c) (funext fun ax => Fin.ext ?_)
  match ax with
  | ⟨0, _⟩ => show win0_1.index t (0 : Fin 2) * 512 + 1 * k.val = k.val; rw [e0]; omega
  | ⟨1, _⟩ => show win0_1.index t (1 : Fin 2) * 256 + 1 * a.val = a.val; rw [e1]; omega

/-- Every point's bias block is the bias. -/
theorem blk2_apply (c : Dev nD) (t : Fin cfg0.N) (a : Fin 256) :
    (iblk m c 2 t : Vec Ideal S256 .f32) (ix1 a) = argB m c (ix1 a) := by
  obtain ⟨-, -, -, -, -, e0, -⟩ := idx_facts t
  show V m c main_arg2 (((cfg0.win 2).blk t).view.emb (ix1 a)) = _
  rw [V_main_arg2]
  refine congrArg (argB m c) (funext fun ax => Fin.ext ?_)
  match ax with
  | ⟨0, _⟩ => show win0_2.index t (0 : Fin 1) * 256 + 1 * a.val = a.val; rw [e0]; omega

/-- Every point's projection row, at column a, is the projection argument at row a. -/
theorem blk3_apply (c : Dev nD) (t : Fin cfg0.N) (a : Fin 256) :
    (iblk m c 3 t : Vec Ideal S1x256 .f32) (ix2 (0 : Fin 1) a) = argP m c (ix2 a (0 : Fin 1)) := by
  obtain ⟨-, -, -, -, -, -, e0, e1, -⟩ := idx_facts t
  show (V m c main_v0 : S1x256.Idx → EReal) (((cfg0.win 3).blk t).view.emb (ix2 (0 : Fin 1) a)) = _
  rw [V_row]
  refine transpose_apply [1, 0] (argP m c) transposes_S256x1_S1x256_1_0 _ (ix2 a (0 : Fin 1)) fun b => ?_
  match b with
  | ⟨0, _⟩ => show (0 : ℕ) = win0_3.index t (0 : Fin 2) * 1 + 1 * 0; rw [e0]
  | ⟨1, _⟩ => show a.val = win0_3.index t (1 : Fin 2) * 256 + 1 * a.val; rw [e1]; omega

/-- Every point's offset block is the offset. -/
theorem blk4_apply (c : Dev nD) (t : Fin cfg0.N) :
    (iblk m c 4 t : Vec Ideal S1 .f32) (ix1 (0 : Fin 1)) = argO m c (ix1 (0 : Fin 1)) := by
  obtain ⟨-, -, -, -, -, -, -, -, e0, -⟩ := idx_facts t
  show V m c main_arg4 (((cfg0.win 4).blk t).view.emb (ix1 (0 : Fin 1))) = _
  rw [V_main_arg4]
  refine congrArg (argO m c) (funext fun ax => Fin.ext ?_)
  match ax with
  | ⟨0, _⟩ => show win0_4.index t (0 : Fin 1) * 1 + 1 * 0 = 0; rw [e0]

/-! ## The body's loads of a block, read at an index -/

variable (X : Vec Ideal S64x66x256 .f32)

theorem ld0_apply (r : Fin 64) (e : Fin 256) : View.ld X r0_0 (ix3 r (0 : Fin 1) e) = X (ix3 r (0 : Fin 66) e) :=
  congrArg X (funext fun a => Fin.ext (by
    match a with
    | ⟨0, _⟩ => show 0 + 1 * r.val = r.val; omega
    | ⟨1, _⟩ => rfl
    | ⟨2, _⟩ => show 0 + 1 * e.val = e.val; omega))

theorem ld1_apply (r : Fin 64) (e : Fin 256) : View.ld X r0_1 (ix3 r (0 : Fin 1) e) = X (ix3 r (1 : Fin 66) e) :=
  congrArg X (funext fun a => Fin.ext (by
    match a with
    | ⟨0, _⟩ => show 0 + 1 * r.val = r.val; omega
    | ⟨1, _⟩ => rfl
    | ⟨2, _⟩ => show 0 + 1 * e.val = e.val; omega))

theorem ld2_apply (r t' : Fin 64) (e : Fin 256) :
    View.ld X r0_2 (ix3 r t' e) = X (ix3 r (⟨2 + t'.val, by have := t'.isLt; omega⟩ : Fin 66) e) :=
  congrArg X (funext fun a => Fin.ext (by
    match a with
    | ⟨0, _⟩ => show 0 + 1 * r.val = r.val; omega
    | ⟨1, _⟩ => show 2 + 1 * t'.val = 2 + t'.val; omega
    | ⟨2, _⟩ => show 0 + 1 * e.val = e.val; omega))

/-! ## A block row's data is a batch row's data -/

theorem qRow_blk (c : Dev nD) (t : Fin cfg0.N) (r : Fin 64) (hb : t.val * 64 + r.val < 8192) :
    Row.qRow (View.ld (iblk m c 0 t) r0_0) (View.ld (iblk m c 0 t) r0_1) r = rowQ (argX m c) ⟨t.val * 64 + r.val, hb⟩ := by
  funext e
  unfold Row.qRow rowQ
  rw [ld0_apply, ld1_apply, blk0_apply m c t r 0 e hb, blk0_apply m c t r 1 e hb]

theorem trRow_blk (c : Dev nD) (t : Fin cfg0.N) (r : Fin 64) (hb : t.val * 64 + r.val < 8192) :
    Row.trRow (View.ld (iblk m c 0 t) r0_2) r = rowTr (argX m c) ⟨t.val * 64 + r.val, hb⟩ := by
  funext t' e
  unfold Row.trRow rowTr
  rw [ld2_apply, blk0_apply m c t r _ e hb]

theorem wMat_blk (c : Dev nD) (t : Fin cfg0.N) : Row.wMat (View.ld (iblk m c 1 t) r0_3) = matW (argW m c) := by
  funext k a
  unfold Row.wMat matW
  rw [View.ld_unit_zero (S := S512x256) hz2, blk1_apply]

theorem bias_blk (c : Dev nD) (t : Fin cfg0.N) : Row.bias (View.ld (iblk m c 2 t) r0_4) = vecB (argB m c) := by
  funext a
  unfold Row.bias vecB
  rw [View.ld_unit_zero (S := S256) hz1, blk2_apply]

theorem proj_blk (c : Dev nD) (t : Fin cfg0.N) : Row.proj (View.ld (iblk m c 3 t) r0_5) = colP (argP m c) := by
  funext a
  unfold Row.proj colP
  rw [View.ld_unit_zero (S := S1x256) hz2, blk3_apply]

theorem offs_blk (c : Dev nD) (t : Fin cfg0.N) : Row.offs (View.ld (iblk m c 4 t) r0_6) = offO (argO m c) := by
  unfold Row.offs offO
  rw [View.ld_unit_zero (S := S1) hz1, blk4_apply]

/-! ## What each point writes back -/

/-- Position (r, e) of point t's block of a result array is (64·t + r, e). -/
theorem emb5_apply (t : Fin cfg0.N) (r : Fin 64) (e : Fin 256) (hb : t.val * 64 + r.val < 8192) :
    ((cfg0.win 5).blk t).view.emb (ix2 r e) = (ix2 (⟨t.val * 64 + r.val, hb⟩ : Fin 8192) e : S8192x256.Idx) := by
  obtain ⟨-, -, -, -, -, -, -, -, -, e0, e1, -⟩ := idx_facts t
  funext a; apply Fin.ext
  match a with
  | ⟨0, _⟩ => show win0_5.index t (0 : Fin 2) * 64 + 1 * r.val = t.val * 64 + r.val; rw [e0]; omega
  | ⟨1, _⟩ => show win0_5.index t (1 : Fin 2) * 256 + 1 * e.val = e.val; rw [e1]; omega

theorem emb6_apply (t : Fin cfg0.N) (r : Fin 64) (e : Fin 256) (hb : t.val * 64 + r.val < 8192) :
    ((cfg0.win 6).blk t).view.emb (ix2 r e) = (ix2 (⟨t.val * 64 + r.val, hb⟩ : Fin 8192) e : S8192x256.Idx) := by
  obtain ⟨-, -, -, -, -, -, -, -, -, -, -, e0, e1⟩ := idx_facts t
  funext a; apply Fin.ext
  match a with
  | ⟨0, _⟩ => show win0_6.index t (0 : Fin 2) * 64 + 1 * r.val = t.val * 64 + r.val; rw [e0]; omega
  | ⟨1, _⟩ => show win0_6.index t (1 : Fin 2) * 256 + 1 * e.val = e.val; rw [e1]; omega

/-- The attention output as a function of the arguments on core c. -/
abbrev res0 (c : Dev nD) : S8192x256.Idx → EReal := outArr (argX m c) (argW m c) (argB m c) (argP m c) (argO m c)
/-- The query products as a function of the argument on core c. -/
abbrev res1 (c : Dev nD) : S8192x256.Idx → EReal := prodArr (argX m c)

/-- Point t writes back block t of the attention output. -/
theorem flushed5_eq (c : Dev nD) (t : Fin cfg0.N) :
    (dats m 0 c).flushed 5 t = ((cfg0.win 5).blk t).view.read (Elt Ideal) (res0 m c) := by
  rw [Value.flushed5]
  unfold out0_5
  rw [View.canon_unit_zero hz2]
  funext y
  obtain ⟨r, e, rfl⟩ : ∃ (r : Fin 64) (e : Fin 256), y = ix2 r e := ⟨y 0, y 1, eq_ix2 y⟩
  have ht : t.val < 128 := lt_of_lt_of_eq t.isLt N_0
  have hr := r.isLt
  have hb : t.val * 64 + r.val < 8192 := by omega
  refine (Row.out_apply (View.ld (iblk m c 0 t) r0_0) (View.ld (iblk m c 0 t) r0_1) (View.ld (iblk m c 0 t) r0_2)
    (View.ld (iblk m c 1 t) r0_3) (View.ld (iblk m c 2 t) r0_4) (View.ld (iblk m c 3 t) r0_5) (View.ld (iblk m c 4 t) r0_6) r e).trans ?_
  show _ = res0 m c (((cfg0.win 5).blk t).view.emb (ix2 r e))
  rw [emb5_apply t r e hb, qRow_blk m c t r hb, trRow_blk m c t r hb, wMat_blk, bias_blk, proj_blk, offs_blk]
  rfl

/-- Point t writes back block t of the query products. -/
theorem flushed6_eq (c : Dev nD) (t : Fin cfg0.N) :
    (dats m 0 c).flushed 6 t = ((cfg0.win 6).blk t).view.read (Elt Ideal) (res1 m c) := by
  rw [Value.flushed6]
  unfold out0_6
  rw [View.canon_unit_zero hz2]
  funext y
  obtain ⟨r, e, rfl⟩ : ∃ (r : Fin 64) (e : Fin 256), y = ix2 r e := ⟨y 0, y 1, eq_ix2 y⟩
  have ht : t.val < 128 := lt_of_lt_of_eq t.isLt N_0
  have hr := r.isLt
  have hb : t.val * 64 + r.val < 8192 := by omega
  refine (Row.pay2_apply (View.ld (iblk m c 0 t) r0_0) (View.ld (iblk m c 0 t) r0_1) r e).trans ?_
  show _ = res1 m c (((cfg0.win 6).blk t).view.emb (ix2 r e))
  rw [emb6_apply t r e hb, qRow_blk m c t r hb]
  rfl

/-! ## The blocks tile the result arrays -/

theorem mem_blk5 (t : Fin cfg0.N) (i : S8192x256.Idx) :
    i ∈ ((cfg0.win 5).blk t).view.set ↔ ∀ a : Fin 2, win0_5.index t a * S64x256.size a ≤ (i a).val ∧ (i a).val < win0_5.index t a * S64x256.size a + S64x256.size a := by
  show i ∈ ((View.whole main_v1_0).slice (win0_5.rect t)).set ↔ _
  rw [View.set_slice_whole, Rect.mem_set_unit]
  exact Iff.rfl

theorem mem_blk6 (t : Fin cfg0.N) (i : S8192x256.Idx) :
    i ∈ ((cfg0.win 6).blk t).view.set ↔ ∀ a : Fin 2, win0_6.index t a * S64x256.size a ≤ (i a).val ∧ (i a).val < win0_6.index t a * S64x256.size a + S64x256.size a := by
  show i ∈ ((View.whole main_v1_1).slice (win0_6.rect t)).set ↔ _
  rw [View.set_slice_whole, Rect.mem_set_unit]
  exact Iff.rfl

/-- Row i₀ of a result array lies in the block of point i₀ / 64. -/
theorem cover5 (i : S8192x256.Idx) : ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 128 := N_0
  let t : Fin cfg0.N := ⟨(i 0).val / 64, by rw [hN]; omega⟩
  obtain ⟨-, -, -, -, -, -, -, -, -, e0, e1, -⟩ := idx_facts t
  have ht : t.val = (i 0).val / 64 := rfl
  refine ⟨t, flush0_5 t, ?_⟩
  rw [mem_blk5]
  intro a
  match a with
  | ⟨0, _⟩ => show win0_5.index t (0 : Fin 2) * 64 ≤ (i 0).val ∧ (i 0).val < win0_5.index t (0 : Fin 2) * 64 + 64; rw [e0, ht]; omega
  | ⟨1, _⟩ => show win0_5.index t (1 : Fin 2) * 256 ≤ (i 1).val ∧ (i 1).val < win0_5.index t (1 : Fin 2) * 256 + 256; rw [e1]; omega

theorem cover6 (i : S8192x256.Idx) : ∃ t : Fin cfg0.N, (cfg0.win 6).flush t = true ∧ i ∈ ((cfg0.win 6).blk t).view.set := by
  have hi0 : (i 0).val < 8192 := (i 0).isLt
  have hi1 : (i 1).val < 256 := (i 1).isLt
  have hN : cfg0.N = 128 := N_0
  let t : Fin cfg0.N := ⟨(i 0).val / 64, by rw [hN]; omega⟩
  obtain ⟨-, -, -, -, -, -, -, -, -, -, -, e0, e1⟩ := idx_facts t
  have ht : t.val = (i 0).val / 64 := rfl
  refine ⟨t, flush0_6 t, ?_⟩
  rw [mem_blk6]
  intro a
  match a with
  | ⟨0, _⟩ => show win0_6.index t (0 : Fin 2) * 64 ≤ (i 0).val ∧ (i 0).val < win0_6.index t (0 : Fin 2) * 64 + 64; rw [e0, ht]; omega
  | ⟨1, _⟩ => show win0_6.index t (1 : Fin 2) * 256 ≤ (i 1).val ∧ (i 1).val < win0_6.index t (1 : Fin 2) * 256 + 256; rw [e1]; omega

/-- The first result array after the run. -/
theorem final5 (c : Dev nD) : (dats m 0 c).arrAt 5 cfg0.N = res0 m c :=
  (dats m 0 c).arrAt_eq_of_cover 5 (res0 m c) (fun t _ => flushed5_eq m c t) cover5

/-- The second result array after the run. -/
theorem final6 (c : Dev nD) : (dats m 0 c).arrAt 6 cfg0.N = res1 m c :=
  (dats m 0 c).arrAt_eq_of_cover 6 (res1 m c) (fun t _ => flushed6_eq m c t) cover6

/-! ## The run, read -/

/-- Every weakly fair execution of the kernel's program ends with the two result arrays at the attention output
    and the query products of the arguments, the arguments unchanged. -/
theorem run : θ_run defs (onTc (τ := τ) (main (F := Ideal))) ⟨m, fun _ => 0, ρ⟩ fun r => ∀ c : Dev nD,
      r.2.mem ((c : Thread nD τ).loc main_v1_0) = res0 m c
      ∧ r.2.mem ((c : Thread nD τ).loc main_v1_1) = res1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.Arr

end
-- ==== Proof.RefRow.lean ====
/-
  The reference, read row by row.  Each stage of the reference's program is read at an index written by
  coordinates — batch row `b`, tree `t`, hidden unit `a`, column `e` — and is the matching stage of the row
  function of Proof/AttnSpec.lean at row b's data (Proof/AttnArrays.lean): the query product; the tree
  vectors; the query stretched over the trees and joined to them; the joined vector through the weights; the
  bias and the clip at zero; the projection to a logit; the maximum over the trees (one more maximum with
  `-∞` changes nothing); the exponentials and their sum (the sum's zero start adds nothing); the shares; the
  pooled sum; the division by 64.  So the reference's two results are the arrays `outArr` and `prodArr`.
-/
import proofs.«167542_j40991167873617_2_alg».proof.Proof.Gen.ReferenceIdeal.Read
import proofs.«167542_j40991167873617_2_alg».proof.Proof.AttnArrays
import Idealize.ShloMosaic.Lib.Pipeline.Value
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx
open Cert.TreeAttn

variable (x0 : (⟨S8192x66x256, .f32⟩ : BufTy).Contents (Elt Ideal)) (x1 : (⟨S512x256, .f32⟩ : BufTy).Contents (Elt Ideal))
  (x2 : (⟨S256, .f32⟩ : BufTy).Contents (Elt Ideal)) (x3 : (⟨S256x1, .f32⟩ : BufTy).Contents (Elt Ideal))
  (x4 : (⟨S1, .f32⟩ : BufTy).Contents (Elt Ideal))

/-- The query product at (b, e). -/
theorem prod_apply (b : Fin 8192) (e : Fin 256) : val_main_v4 (F := Ideal) x0 (ix2 b e) = rowQ x0 b e := by
  rw [val_main_v4_apply, val_main_v1_apply, val_main_v0_apply, val_main_v3_apply, val_main_v2_apply]
  have hb := b.isLt
  have he := e.isLt
  refine congrArg₂ (fun u v : EReal => u * v) (congrArg x0 ?_) (congrArg x0 ?_)
  · funext a; apply Fin.ext
    match a with
    | ⟨0, _⟩ => show (b.val * 256 + e.val) / 256 = b.val; omega
    | ⟨1, _⟩ => rfl
    | ⟨2, _⟩ => show (b.val * 256 + e.val) % 256 = e.val; omega
  · funext a; apply Fin.ext
    match a with
    | ⟨0, _⟩ => show (b.val * 256 + e.val) / 256 = b.val; omega
    | ⟨1, _⟩ => rfl
    | ⟨2, _⟩ => show (b.val * 256 + e.val) % 256 = e.val; omega

/-- Tree vector (b, t) at e. -/
theorem tree_apply (b : Fin 8192) (t : Fin 64) (e : Fin 256) :
    val_main_v5 (F := Ideal) x0 (ix3 b t e) = rowTr x0 b t e := by
  rw [val_main_v5_apply]
  exact congrArg x0 (funext fun a => Fin.ext (by match a with | ⟨0, _⟩ => rfl | ⟨1, _⟩ => rfl | ⟨2, _⟩ => rfl))

/-- The query stretched over the trees, at (b, t, e). -/
theorem stretched_apply (b : Fin 8192) (t : Fin 64) (e : Fin 256) :
    val_main_v7 (F := Ideal) x0 (ix3 b t e) = rowQ x0 b e := by
  rw [val_main_v7_apply, val_main_v6_apply]
  refine (congrArg (val_main_v4 (F := Ideal) x0) ?_).trans (prod_apply x0 b e)
  exact funext fun a => Fin.ext (by match a with | ⟨0, _⟩ => rfl | ⟨1, _⟩ => rfl)

/-- The joined vector at (b, t, k): the query below position 256, the tree vector from there on. -/
theorem joined_apply (b : Fin 8192) (t : Fin 64) (k : Fin 512) :
    val_main_v8 (F := Ideal) x0 (ix3 b t k) = joined (rowQ x0 b) (rowTr x0 b) t k := by
  unfold val_main_v8 joined
  have hk := k.isLt
  by_cases h : k.val < 256
  · rw [dif_pos h]
    refine (concatenate_pair_apply_left (t := S8192x64x512) (s₁ := S8192x64x256) (s₂ := S8192x64x256) (2 : Fin 3)
      (val_main_v7 (F := Ideal) x0) (val_main_v5 (F := Ideal) x0) concatenates_S8192x64x256_S8192x64x256_S8192x64x512_d2
      (ix3 b t k) rfl (ix3 b t (⟨k.val, h⟩ : Fin 256))
      (fun ax => by match ax with | ⟨0, _⟩ => rfl | ⟨1, _⟩ => rfl | ⟨2, _⟩ => rfl)).trans ?_
    exact stretched_apply x0 b t ⟨k.val, h⟩
  · rw [dif_neg h]
    refine (concatenate_pair_apply_right (t := S8192x64x512) (s₁ := S8192x64x256) (s₂ := S8192x64x256) (2 : Fin 3)
      (val_main_v7 (F := Ideal) x0) (val_main_v5 (F := Ideal) x0) concatenates_S8192x64x256_S8192x64x256_S8192x64x512_d2
      (ix3 b t k) rfl rfl (ix3 b t (⟨k.val - 256, by omega⟩ : Fin 256))
      (fun ax hne => by
        match ax with
        | ⟨0, _⟩ => rfl
        | ⟨1, _⟩ => rfl
        | ⟨2, _⟩ => exact absurd rfl hne)
      (by show k.val - 256 + 256 = k.val; omega)).trans ?_
    exact tree_apply x0 b t ⟨k.val - 256, by omega⟩

/-- The joined vector through the weights, at (b, t, a). -/
theorem pre_apply (b : Fin 8192) (t : Fin 64) (a : Fin 256) :
    val_main_v9 (F := Ideal) x0 x1 (ix3 b t a) = pre (rowQ x0 b) (rowTr x0 b) (matW x1) t a := by
  rw [val_main_v9_apply]
  unfold pre
  refine Finset.sum_congr rfl fun k _ => ?_
  refine congrArg₂ (fun u v : EReal => u * v) ?_ ?_
  · refine (congrArg (val_main_v8 (F := Ideal) x0) ?_).trans (joined_apply x0 b t k)
    exact funext fun ax => Fin.ext (by match ax with | ⟨0, _⟩ => rfl | ⟨1, _⟩ => rfl | ⟨2, _⟩ => rfl)
  · exact congrArg x1 (funext fun ax => Fin.ext (by match ax with | ⟨0, _⟩ => rfl | ⟨1, _⟩ => rfl))

/-- The clipped hidden value at (b, t, a). -/
theorem hid_apply (b : Fin 8192) (t : Fin 64) (a : Fin 256) :
    val_main_v13 (F := Ideal) x0 x1 x2 (ix3 b t a) = hid (rowQ x0 b) (rowTr x0 b) (matW x1) (vecB x2) t a := by
  rw [val_main_v13_apply, val_main_v12_apply, pre_apply, val_main_v11_apply, val_main_v10_apply,
    val_main_call0_v0_apply, val_main_call0_cst_apply]
  have e1 : idx_main_v10 (idx_main_v11 (ix3 b t a)) = ix1 a :=
    funext fun ax => Fin.ext (by match ax with | ⟨0, _⟩ => rfl)
  rw [e1]
  rfl

/-- The logit at (b, t). -/
theorem logit_apply (b : Fin 8192) (t : Fin 64) :
    val_main_v17 (F := Ideal) x0 x1 x2 x3 x4 (ix3 b t (0 : Fin 1))
      = logit (rowQ x0 b) (rowTr x0 b) (matW x1) (vecB x2) (colP x3) (offO x4) t := by
  rw [val_main_v17_apply, val_main_v14_apply, val_main_v16_apply, val_main_v15_apply]
  unfold logit
  refine congrArg₂ (fun u v : EReal => u + v) (Finset.sum_congr rfl fun a _ => ?_) ?_
  · refine congrArg₂ (fun u v : EReal => u * v) ?_ ?_
    · refine (congrArg (val_main_v13 (F := Ideal) x0 x1 x2) ?_).trans (hid_apply x0 x1 x2 b t a)
      exact funext fun ax => Fin.ext (by match ax with | ⟨0, _⟩ => rfl | ⟨1, _⟩ => rfl | ⟨2, _⟩ => rfl)
    · exact congrArg x3 (funext fun ax => Fin.ext (by match ax with | ⟨0, _⟩ => rfl | ⟨1, _⟩ => rfl))
  · exact congrArg x4 (funext fun ax => Fin.ext (by match ax with | ⟨0, _⟩ => rfl))

/-- Batch row `b` with tree coordinate `k` put back into the reduced middle axis is (b, k, 0). -/
theorem lift_mid (h : S8192x64x1.Reduces [1] S8192x1) (b : Fin 8192) (k : Fin (S8192x64x1.size 1)) :
    h.lift (ix2 b (0 : Fin 1)) k = ix3 b (⟨k.val, k.isLt⟩ : Fin 64) (0 : Fin 1) := by
  funext c; apply Fin.ext
  fin_cases c <;> rfl

/-- The largest logit of row b. -/
theorem top_apply (b : Fin 8192) :
    val_main_v20 (F := Ideal) x0 x1 x2 x3 x4 (ix2 b (0 : Fin 1))
      = top (rowQ x0 b) (rowTr x0 b) (matW x1) (vecB x2) (colP x3) (offO x4) := by
  have h : S8192x64x1.Reduces [1] S8192x1 := by decide
  rw [val_main_v20_apply, val_main_v19_apply, val_main_cst_0_apply]
  unfold val_main_v18
  rw [Host.reduce_eq_fold_single FloatOps.maximumf _ _ reducesTo_S8192x64x1_S8192x1_d1 h h_S_]
  refine Eq.trans ?_ (top_absorb (rowQ x0 b) (rowTr x0 b) (matW x1) (vecB x2) (colP x3) (offO x4))
  refine congrArg (fun z : EReal => max negInfW z) ?_
  unfold top
  have hf : (val_main_v17 (F := Ideal) x0 x1 x2 x3 x4 ∘ h.lift (ix2 b (0 : Fin 1)))
      = fun k : Fin 64 => logit (rowQ x0 b) (rowTr x0 b) (matW x1) (vecB x2) (colP x3) (offO x4) k :=
    funext fun k => (congrArg (val_main_v17 (F := Ideal) x0 x1 x2 x3 x4) (lift_mid h b k)).trans (logit_apply x0 x1 x2 x3 x4 b ⟨k.val, k.isLt⟩)
  exact congrArg (fun f => Finset.fold max negInfW f (Finset.univ : Finset (Fin 64))) hf

/-- The unnormalised weight at (b, t). -/
theorem wt_apply (b : Fin 8192) (t : Fin 64) :
    val_main_v24 (F := Ideal) x0 x1 x2 x3 x4 (ix3 b t (0 : Fin 1))
      = wt (rowQ x0 b) (rowTr x0 b) (matW x1) (vecB x2) (colP x3) (offO x4) t := by
  rw [val_main_v24_apply, val_main_v23_apply, logit_apply, val_main_v22_apply, val_main_v21_apply]
  have e1 : idx_main_v21 (idx_main_v22 (ix3 b t (0 : Fin 1))) = ix2 b (0 : Fin 1) :=
    funext fun ax => Fin.ext (by match ax with | ⟨0, _⟩ => rfl | ⟨1, _⟩ => rfl)
  rw [e1, top_apply]
  rfl

/-- The sum of row b's weights. -/
theorem total_apply (b : Fin 8192) :
    val_main_v25 (F := Ideal) x0 x1 x2 x3 x4 (ix2 b (0 : Fin 1))
      = total (rowQ x0 b) (rowTr x0 b) (matW x1) (vecB x2) (colP x3) (offO x4) := by
  rw [val_main_v25_apply, val_main_cst_1_apply]
  show Ideal.ofBits .f32 0x00000000#32 + _ = _
  rw [Ideal.ofBits_zero_f32, zero_add]
  unfold total
  refine Finset.sum_congr rfl fun t _ => ?_
  refine (congrArg (val_main_v24 (F := Ideal) x0 x1 x2 x3 x4) ?_).trans (wt_apply x0 x1 x2 x3 x4 b t)
  exact funext fun ax => Fin.ext (by match ax with | ⟨0, _⟩ => rfl | ⟨1, _⟩ => rfl | ⟨2, _⟩ => rfl)

/-- The share at (b, t). -/
theorem share_apply (b : Fin 8192) (t : Fin 64) :
    val_main_v28 (F := Ideal) x0 x1 x2 x3 x4 (ix3 b t (0 : Fin 1))
      = share (rowQ x0 b) (rowTr x0 b) (matW x1) (vecB x2) (colP x3) (offO x4) t := by
  rw [val_main_v28_apply, wt_apply, val_main_v27_apply, val_main_v26_apply]
  have e1 : idx_main_v26 (idx_main_v27 (ix3 b t (0 : Fin 1))) = ix2 b (0 : Fin 1) :=
    funext fun ax => Fin.ext (by match ax with | ⟨0, _⟩ => rfl | ⟨1, _⟩ => rfl)
  rw [e1, total_apply]
  rfl

/-- The pooled sum at (b, e). -/
theorem pooled_apply (b : Fin 8192) (e : Fin 256) :
    val_main_v31 (F := Ideal) x0 x1 x2 x3 x4 (ix2 b e)
      = pooled (rowQ x0 b) (rowTr x0 b) (matW x1) (vecB x2) (colP x3) (offO x4) e := by
  rw [val_main_v31_apply, val_main_cst_2_apply]
  show Ideal.ofBits .f32 0x00000000#32 + _ = _
  rw [Ideal.ofBits_zero_f32, zero_add]
  unfold pooled
  refine Finset.sum_congr rfl fun t _ => ?_
  have e1 : idx_main_v31 (ix2 b e) t = ix3 b t e :=
    funext fun ax => Fin.ext (by match ax with | ⟨0, _⟩ => rfl | ⟨1, _⟩ => rfl | ⟨2, _⟩ => rfl)
  rw [e1, val_main_v30_apply, val_main_v29_apply, tree_apply]
  have e2 : idx_main_v29 (ix3 b t e) = ix3 b t (0 : Fin 1) :=
    funext fun ax => Fin.ext (by match ax with | ⟨0, _⟩ => rfl | ⟨1, _⟩ => rfl | ⟨2, _⟩ => rfl)
  rw [e2, share_apply]
  rfl

/-- The first result at (b, e). -/
theorem out_apply (b : Fin 8192) (e : Fin 256) :
    val_main_v33 (F := Ideal) x0 x1 x2 x3 x4 (ix2 b e)
      = out (rowQ x0 b) (rowTr x0 b) (matW x1) (vecB x2) (colP x3) (offO x4) e := by
  rw [val_main_v33_apply, pooled_apply, val_main_v32_apply, val_main_cst_3_apply]
  rfl

/-- The reference's first result is the attention output array. -/
theorem result0_eq : val_main_v33 (F := Ideal) x0 x1 x2 x3 x4 = outArr x0 x1 x2 x3 x4 := by
  funext i
  obtain ⟨b, e, rfl⟩ : ∃ (b : Fin 8192) (e : Fin 256), i = ix2 b e := ⟨i 0, i 1, eq_ix2 i⟩
  exact out_apply x0 x1 x2 x3 x4 b e

/-- The reference's second result is the array of query products. -/
theorem result1_eq : val_main_v4 (F := Ideal) x0 = prodArr x0 := by
  funext i
  obtain ⟨b, e, rfl⟩ : ∃ (b : Fin 8192) (e : Fin 256), i = ix2 b e := ⟨i 0, i 1, eq_ix2 i⟩
  exact prod_apply x0 b e

end Cert.ReferenceIdeal.Row

end
-- ==== Proof.lean ====
/-
  Attention over a fixed tree axis: the Pallas kernel against its jnp reference, on the extended reals.

  Each of 8192 batch rows holds two query factors and 64 tree vectors of 256 entries.  Both programs form the
  query product, join it to every tree vector, send the joined vector through a 512 × 256 weight matrix, add a
  bias, clip below at zero, project to one logit per tree, take the softmax over the 64 trees, and return the
  softmax-weighted sum of the tree vectors divided by 64, together with the query product.

  The two programs arrange this differently, and two laws join them (Proof/AttnSpec.lean):
  * the reference contracts the joined 512-vector with the weights in one sum; the kernel contracts the query
    half with the upper 256 rows and the tree half with the lower 256 rows and adds the two — a sum of
    256 + 256 terms split in two, valid on the extended reals with no finiteness assumption;
  * the reference divides by 64, the kernel multiplies by the dyadic 1/64 — equal at the infinities too.
  The remaining differences are not differences at exact values: the kernel's narrowing of the matrix operands
  is the identity; its row maximum starts from `-∞` where the reference takes one more maximum with `-∞`; its
  sums start from nothing where the reference's start from zero; its projection reads the transposed
  projection argument.  The precondition (finite inputs) is never opened.

  Proof/AttnSpec.lean states one batch row's function and the two laws; Proof/AttnArrays.lean the two result
  arrays as functions of the argument arrays; Proof/RefRow.lean reads the reference stage by stage at an index
  and finds those arrays; Proof/KernelRow.lean reads one block of the kernel row by row and finds the row
  function; Proof/KernelArray.lean places the 128 blocks in the result arrays.  Here the runs are set side by
  side.  `preserves` has no conjunct: the idealization rewrote nothing.
-/
import proofs.«167542_j40991167873617_2_alg».proof.Defs
import proofs.«167542_j40991167873617_2_alg».proof.Proof.Gen.Kernel
import proofs.«167542_j40991167873617_2_alg».proof.Proof.Gen.Kernel.Skeleton
import proofs.«167542_j40991167873617_2_alg».proof.Proof.Gen.Kernel.Launch
import proofs.«167542_j40991167873617_2_alg».proof.Proof.Gen.Kernel.Points
import proofs.«167542_j40991167873617_2_alg».proof.Proof.Gen.Kernel.Frame
import proofs.«167542_j40991167873617_2_alg».proof.Proof.Gen.KernelIdeal
import proofs.«167542_j40991167873617_2_alg».proof.Proof.Gen.KernelIdeal.Skeleton
import proofs.«167542_j40991167873617_2_alg».proof.Proof.Gen.KernelIdeal.Launch
import proofs.«167542_j40991167873617_2_alg».proof.Proof.Gen.KernelIdeal.Points
import proofs.«167542_j40991167873617_2_alg».proof.Proof.Gen.KernelIdeal.Frame
import proofs.«167542_j40991167873617_2_alg».proof.Proof.Gen.ReferenceIdeal
import proofs.«167542_j40991167873617_2_alg».proof.Proof.Gen.Pre_finite_inputs
import proofs.«167542_j40991167873617_2_alg».proof.Proof.Gen.KernelIdeal.Value
import proofs.«167542_j40991167873617_2_alg».proof.Proof.Gen.ReferenceIdeal.Run
import proofs.«167542_j40991167873617_2_alg».proof.Proof.Gen.ReferenceIdeal.Read
import proofs.«167542_j40991167873617_2_alg».proof.Proof.KernelArray
import proofs.«167542_j40991167873617_2_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the five arguments both programs end with the attention output and the query
    products of those arguments. -/
theorem algebraic : Cert.algebraic_KernelIdeal_ReferenceIdeal := by
  intro m ρ m' ρ' _ hagree
  refine ⟨fun c => Cert.KernelIdeal.Arr.res0 m c, fun c => Cert.KernelIdeal.Arr.res1 m c,
    Cert.KernelIdeal.Arr.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v33_eq, Cert.ReferenceIdeal.Row.result0_eq, (hagree c).1, (hagree c).2.1,
      (hagree c).2.2.1, (hagree c).2.2.2.1, (hagree c).2.2.2.2]
  · rw [Cert.ReferenceIdeal.Read.val_main_v4_eq, Cert.ReferenceIdeal.Row.result1_eq, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
